-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S2x1600000 : Shape := ⟨2, ![2, 1600000]⟩
abbrev S2x500000 : Shape := ⟨2, ![2, 500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S256x128 .f32) (main_arg8 : FVec F S128 .f32) (main_arg9 : FVec F S128x1 .f32) (main_arg10 : FVec F S1 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S128x128 .f32) (main_arg5 : FVec F S128 .f32) (main_arg6 : FVec F S128x128 .f32) (main_arg7 : FVec F S256x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : FVec F S256x128 .f32) (main_arg8 : FVec F S128 .f32) (main_arg9 : FVec F S128x1 .f32) (main_arg10 : FVec F S1 .f32) (main_arg11 : IVec S2x1600000 32) (main_arg12 : IVec S2x500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S2x1600000 : Shape := ⟨2, ![2, 1600000]⟩
abbrev S2x500000 : Shape := ⟨2, ![2, 500000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S1x1 : Shape := ⟨2, ![1, 1]⟩
abbrev S5000x1 : Shape := ⟨2, ![5000, 1]⟩

abbrev nBuf : Space → Nat
  | .hbm => 101
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S2x1600000, .i32⟩
  | .hbm, ⟨12, _⟩ => ⟨S2x500000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S1x500000, .i32⟩
  | .hbm, ⟨74, _⟩ => ⟨S500000, .i32⟩
  | .hbm, ⟨75, _⟩ => ⟨S1x500000, .i32⟩
  | .hbm, ⟨76, _⟩ => ⟨S500000, .i32⟩
  | .hbm, ⟨77, _⟩ => ⟨S_, .i32⟩
  | .hbm, ⟨78, _⟩ => ⟨S500000, .i32⟩
  | .hbm, ⟨79, _⟩ => ⟨S500000, .i1⟩
  | .hbm, ⟨80, _⟩ => ⟨S_, .i32⟩
  | .hbm, ⟨81, _⟩ => ⟨S500000, .i32⟩
  | .hbm, ⟨82, _⟩ => ⟨S500000, .i32⟩
  | .hbm, ⟨83, _⟩ => ⟨S500000, .i32⟩
  | .hbm, ⟨84, _⟩ => ⟨S500000x1, .i32⟩
  | .hbm, ⟨85, _⟩ => ⟨S500000x128, .f32⟩
  | .hbm, ⟨86, _⟩ => ⟨S_, .i32⟩
  | .hbm, ⟨87, _⟩ => ⟨S500000, .i32⟩
  | .hbm, ⟨88, _⟩ => ⟨S500000, .i1⟩
  | .hbm, ⟨89, _⟩ => ⟨S_, .i32⟩
  | .hbm, ⟨90, _⟩ => ⟨S500000, .i32⟩
  | .hbm, ⟨91, _⟩ => ⟨S500000, .i32⟩
  | .hbm, ⟨92, _⟩ => ⟨S500000, .i32⟩
  | .hbm, ⟨93, _⟩ => ⟨S500000x1, .i32⟩
  | .hbm, ⟨94, _⟩ => ⟨S500000x128, .f32⟩
  | .hbm, ⟨95, _⟩ => ⟨S128x128, .f32⟩
  | .hbm, ⟨96, _⟩ => ⟨S128x128, .f32⟩
  | .hbm, ⟨97, _⟩ => ⟨S1x128, .f32⟩
  | .hbm, ⟨98, _⟩ => ⟨S1x1, .f32⟩
  | .hbm, ⟨99, _⟩ => ⟨S500000x1, .f32⟩
  | .hbm, ⟨100, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S128x1, .f32⟩
  | .local _ .vmem, ⟨26, _⟩ => ⟨S1x1, .f32⟩
  | .local _ .vmem, ⟨27, _⟩ => ⟨S5000x1, .f32⟩
  | .local _ .vmem, ⟨28, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_call1_v0 : Ref sig .tc := ⟨.hbm, 65, rfl⟩
abbrev main_call1_v1 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_10 : Ref sig .tc := ⟨.hbm, 77, rfl⟩
abbrev main_v48 : Ref sig .tc := ⟨.hbm, 78, rfl⟩
abbrev main_v49 : Ref sig .tc := ⟨.hbm, 79, rfl⟩
abbrev main_c_11 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_12 : Ref sig .tc := ⟨.hbm, 86, rfl⟩
abbrev main_v55 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S256x128_S128x128_0_0 : S256x128.Slices ![0, 0] S128x128
  slices_S256x128_S128x128_128_0 : S256x128.Slices ![128, 0] S128x128
  shapeCasts_S1_S1x1 : S1.ShapeCasts S1x1
  shapeCasts_S128x128_S128x128 : S128x128.ShapeCasts S128x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S500000x1.size a
  hwx2_7 : ∀ i : grid2.Coords, EltTy.bits .f32 = 32 ∨ (Rect.block (s := S500000x1) S5000x1.size (cc2_transform_7 i) (hinb2_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v66) S5000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S2x1600000 : Shape := ⟨2, ![2, 1600000]⟩
abbrev S2x500000 : Shape := ⟨2, ![2, 500000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x256 : Shape := ⟨2, ![500000, 256]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S2x1600000, .i32⟩
  | .hbm, ⟨12, _⟩ => ⟨S2x500000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S1x1600000, .i32⟩
  | .hbm, ⟨53, _⟩ => ⟨S1600000, .i32⟩
  | .hbm, ⟨54, _⟩ => ⟨S1x1600000, .i32⟩
  | .hbm, ⟨55, _⟩ => ⟨S1600000, .i32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000x1, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S1x500000, .i32⟩
  | .hbm, ⟨89, _⟩ => ⟨S500000, .i32⟩
  | .hbm, ⟨90, _⟩ => ⟨S_, .i32⟩
  | .hbm, ⟨91, _⟩ => ⟨S500000, .i32⟩
  | .hbm, ⟨92, _⟩ => ⟨S500000, .i1⟩
  | .hbm, ⟨93, _⟩ => ⟨S_, .i32⟩
  | .hbm, ⟨94, _⟩ => ⟨S500000, .i32⟩
  | .hbm, ⟨95, _⟩ => ⟨S500000, .i32⟩
  | .hbm, ⟨96, _⟩ => ⟨S500000, .i32⟩
  | .hbm, ⟨97, _⟩ => ⟨S500000x1, .i32⟩
  | .hbm, ⟨98, _⟩ => ⟨S500000x128, .f32⟩
  | .hbm, ⟨99, _⟩ => ⟨S1x500000, .i32⟩
  | .hbm, ⟨100, _⟩ => ⟨S500000, .i32⟩
  | .hbm, ⟨101, _⟩ => ⟨S_, .i32⟩
  | .hbm, ⟨102, _⟩ => ⟨S500000, .i32⟩
  | .hbm, ⟨103, _⟩ => ⟨S500000, .i1⟩
  | .hbm, ⟨104, _⟩ => ⟨S_, .i32⟩
  | .hbm, ⟨105, _⟩ => ⟨S500000, .i32⟩
  | .hbm, ⟨106, _⟩ => ⟨S500000, .i32⟩
  | .hbm, ⟨107, _⟩ => ⟨S500000, .i32⟩
  | .hbm, ⟨108, _⟩ => ⟨S500000x1, .i32⟩
  | .hbm, ⟨109, _⟩ => ⟨S500000x128, .f32⟩
  | .hbm, ⟨110, _⟩ => ⟨S500000x256, .f32⟩
  | .hbm, ⟨111, _⟩ => ⟨S500000x128, .f32⟩
  | .hbm, ⟨112, _⟩ => ⟨S1x128, .f32⟩
  | .hbm, ⟨113, _⟩ => ⟨S500000x128, .f32⟩
  | .hbm, ⟨114, _⟩ => ⟨S500000x128, .f32⟩
  | .hbm, ⟨115, _⟩ => ⟨S_, .f32⟩
  | .hbm, ⟨116, _⟩ => ⟨S500000x128, .f32⟩
  | .hbm, ⟨117, _⟩ => ⟨S500000x128, .f32⟩
  | .hbm, ⟨118, _⟩ => ⟨S500000x1, .f32⟩
  | .hbm, ⟨119, _⟩ => ⟨S1x1, .f32⟩
  | .hbm, ⟨120, _⟩ => ⟨S500000x1, .f32⟩
  | .hbm, ⟨121, _⟩ => ⟨S500000x1, .f32⟩
  | .hbm, ⟨122, _⟩ => ⟨S500000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_cst : Ref sig .tc := ⟨.hbm, 49, rfl⟩
abbrev main_call1_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_call2_v0 : Ref sig .tc := ⟨.hbm, 76, rfl⟩
abbrev main_call2_v1 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_10 : Ref sig .tc := ⟨.hbm, 90, rfl⟩
abbrev main_v59 : Ref sig .tc := ⟨.hbm, 91, rfl⟩
abbrev main_v60 : Ref sig .tc := ⟨.hbm, 92, rfl⟩
abbrev main_c_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_12 : Ref sig .tc := ⟨.hbm, 101, rfl⟩
abbrev main_v68 : Ref sig .tc := ⟨.hbm, 102, rfl⟩
abbrev main_v69 : Ref sig .tc := ⟨.hbm, 103, rfl⟩
abbrev main_c_13 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call3_cst : Ref sig .tc := ⟨.hbm, 115, rfl⟩
abbrev main_call3_v0 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x128_S500000x128_S500000x256_d1 : Shape.Concatenates [S500000x128, S500000x128] S500000x256 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.KernelRun.lean ====
/-
  The idealized kernel's run with its result named.

  The program is three pipelined regions among stretches of host operations.  Run from any memory, every weakly
  fair execution terminates, the argument arrays end as launched, and the result buffer ends at the contents the
  last boundary of the run assigns to it: the fold of the host stretches and of the three regions' write-backs
  over the launch memory.  What that fold holds at the result buffer is computed in the modules that follow.
-/
import proofs.«122435_j83356725281166_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the
    arguments unchanged. -/
theorem run_result : θ_run defs (onTc (τ := τ) (main (F := F))) ⟨m, fun _ => 0, ρ⟩ (fun r => ∀ c : Dev nD,
      r.2.mem ((c.tc : Thread nD τ).loc main_v67) = W11 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v67 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c)⟩)

end Cert.KernelIdeal.Hand

end
-- ==== Proof.Payload.lean ====
/-
  The arithmetic of the three kernel bodies, read at one entry of the stored block, on the extended reals.

  Every body multiplies row blocks by weight matrices on the matrix unit (into a zero accumulator), adds the
  products, adds a bias row broadcast over the rows, and (first layer, decoder) clamps below at zero.  At the
  exact instance a matrix product into the zero accumulator is the plain sum over the contracted axis, a change
  of float format is the identity and every pointwise operation is the operation of the extended reals, so each
  stored entry is a closed expression in the loaded blocks' entries.
-/
import proofs.«122435_j83356725281166_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Dense

open Cert.KernelIdeal Cert.KernelIdeal.Gen

/-! ## The two matrix products at an entry -/

theorem mm128_lhs0 (i : S5000x128.Idx) (r : dot_S5000x128_S128x128_S5000x128_1_0_0_1_n_n.contr.Idx) : (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem mm128_rhs1 (i : S5000x128.Idx) (r : dot_S5000x128_S128x128_S5000x128_1_0_0_1_n_n.contr.Idx) : (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] block times a [128,128] matrix into the zero accumulator: entry (p, q) is the sum over k of
    row p of the block against column q of the matrix. -/
theorem mm128_apply {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact mm128_lhs0 _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact mm128_rhs1 _ _)
  rw [el, er]

theorem mm1_lhs0 (i : S5000x1.Idx) (r : dot_S5000x128_S128x1_S5000x1_1_0_0_1_n_n.contr.Idx) : (dot_S5000x128_S128x1_S5000x1_1_0_0_1_n_n.lhsIdx i r 0).val = (i 0).val := by
  unfold DotDims.lhsIdx
  rw [dif_neg (show ¬(0 : Fin S5000x128.rank) ∈ dot_S5000x128_S128x1_S5000x1_1_0_0_1_n_n.lhsBatch by decide),
    dif_pos (show (0 : Fin S5000x128.rank) ∈ dot_S5000x128_S128x1_S5000x1_1_0_0_1_n_n.lhsNonContracting by decide)]
  rfl

theorem mm1_rhs1 (i : S5000x1.Idx) (r : dot_S5000x128_S128x1_S5000x1_1_0_0_1_n_n.contr.Idx) : (dot_S5000x128_S128x1_S5000x1_1_0_0_1_n_n.rhsIdx i r 1).val = (i 1).val := by
  unfold DotDims.rhsIdx
  rw [dif_neg (show ¬(1 : Fin S128x1.rank) ∈ dot_S5000x128_S128x1_S5000x1_1_0_0_1_n_n.rhsBatch by decide),
    dif_pos (show (1 : Fin S128x1.rank) ∈ dot_S5000x128_S128x1_S5000x1_1_0_0_1_n_n.rhsNonContracting by decide)]
  rfl

/-- A [5000,128] block times a [128,1] column into the zero accumulator: entry (p, 0) is the sum over k of
    row p of the block against the column. -/
theorem mm1_apply {φ₁ φ₂ : FTy} (x : FVec Ideal S5000x128 φ₁) (w : FVec Ideal S128x1 φ₂) (p : Fin 5000) (q : Fin 1) :
    matmul dot_S5000x128_S128x1_S5000x1_1_0_0_1_n_n none x w (constant S5000x1 .f32 0x00000000#32) (ix2 p q)
      = ∑ k : Fin 128, x (ix2 p k) * w (ix2 k q) := by
  refine (Ideal.matmul_constant_zero_apply dot_S5000x128_S128x1_S5000x1_1_0_0_1_n_n none x w (ix2 p q)).trans ?_
  rw [← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p q) ((contrEquiv1 dot_S5000x128_S128x1_S5000x1_1_0_0_1_n_n 128 rfl rfl).symm k) = ix2 p k :=
    funext fun a => Fin.ext (by
      match a with
      | ⟨0, _⟩ => exact mm1_lhs0 _ _
      | ⟨1, _⟩ => exact (dot_S5000x128_S128x1_S5000x1_1_0_0_1_n_n.lhsIdx_val_of_single rfl _ _).trans hk)
  have er : dot_S5000x128_S128x1_S5000x1_1_0_0_1_n_n.rhsIdx (ix2 p q) ((contrEquiv1 dot_S5000x128_S128x1_S5000x1_1_0_0_1_n_n 128 rfl rfl).symm k) = ix2 k q :=
    funext fun a => Fin.ext (by
      match a with
      | ⟨0, _⟩ => exact (dot_S5000x128_S128x1_S5000x1_1_0_0_1_n_n.rhsIdx_val_of_single rfl _ _).trans hk
      | ⟨1, _⟩ => exact mm1_rhs1 _ _)
  rw [el, er]

/-! ## The stored entries -/

/-- First layer: the aggregated block times the neighbour weights plus the feature block times the self
    weights plus the bias row, clamped below at zero. -/
theorem pay0_apply (a x : Vec Ideal S5000x128 .f32) (wl wr : Vec Ideal S128x128 .f32) (b : Vec Ideal S1x128 .f32)
    (p : Fin 5000) (q : Fin 128) :
    k0_pay1 (F := Ideal) a x wl wr b (ix2 p q)
      = max (((∑ k : Fin 128, a (ix2 p k) * wl (ix2 k q)) + ∑ k : Fin 128, x (ix2 p k) * wr (ix2 k q))
          + b (ix2 (0 : Fin 1) q)) (Ideal.ofBits .f32 0x00000000#32) := by
  unfold k0_pay1
  simp only [maximumf_apply, addf_apply, mm128_apply, broadcastTo_1b_ab_apply, shapeCast_self, truncf_apply, broadcast_apply]
  rfl

/-- Second layer: the same without the clamp. -/
theorem pay1_apply (a x : Vec Ideal S5000x128 .f32) (wl wr : Vec Ideal S128x128 .f32) (b : Vec Ideal S1x128 .f32)
    (p : Fin 5000) (q : Fin 128) :
    k1_pay1 (F := Ideal) a x wl wr b (ix2 p q)
      = ((∑ k : Fin 128, a (ix2 p k) * wl (ix2 k q)) + ∑ k : Fin 128, x (ix2 p k) * wr (ix2 k q))
          + b (ix2 (0 : Fin 1) q) := by
  unfold k1_pay1
  simp only [addf_apply, mm128_apply, broadcastTo_1b_ab_apply, shapeCast_self, truncf_apply]

/-- Decoder: the hidden row (two products, bias, clamp) against the output column, plus the output bias. -/
theorem pay2_apply (h0 h1 : Vec Ideal S5000x128 .f32) (wa wb : Vec Ideal S128x128 .f32) (b1 : Vec Ideal S1x128 .f32)
    (w2 : Vec Ideal S128x1 .f32) (b2 : Vec Ideal S1x1 .f32) (p : Fin 5000) (q : Fin 1) :
    k2_pay1 (F := Ideal) h0 h1 wa wb b1 w2 b2 (ix2 p q)
      = (∑ j : Fin 128, max (((∑ k : Fin 128, h0 (ix2 p k) * wa (ix2 k j)) + ∑ k : Fin 128, h1 (ix2 p k) * wb (ix2 k j))
          + b1 (ix2 (0 : Fin 1) j)) (Ideal.ofBits .f32 0x00000000#32) * w2 (ix2 j q))
        + b2 (ix2 (0 : Fin 1) q) := by
  unfold k2_pay1
  simp only [maximumf_apply, addf_apply, mm128_apply, mm1_apply, broadcastTo_1b_ab_apply, shapeCast_self, truncf_apply, broadcast_apply]
  rfl

end Cert.KernelIdeal.Dense

end
-- ==== Proof.Layer1.lean ====
/-
  The first region's result array as one function of the arrays it reads.

  The region runs over 20 grid points; point t loads rows 5000 t … 5000 t + 4999 of the aggregated array and of
  the feature array, the two weight matrices and the bias row whole, and writes back the same rows of the result.
  Every entry of the stored block is the dense layer's entry at that row (the sums over the 128 input features,
  the bias, the clamp at zero), so each write-back is a block of ONE whole-array function, and the twenty blocks
  tile the rows: the result array is that function.
-/
import proofs.«122435_j83356725281166_1_alg».proof.Proof.Gen.KernelIdeal.Frame
import proofs.«122435_j83356725281166_1_alg».proof.Proof.Payload
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

/-- The dense part of a layer on whole arrays: entry (i, q) sums, over the 128 input features, the aggregated row
    against the neighbour weights and the feature row against the self weights, and adds the bias. -/
def layer (a x : Vec Ideal S100000x128 .f32) (wl wr : Vec Ideal S128x128 .f32) (b : Vec Ideal S1x128 .f32) :
    Vec Ideal S100000x128 .f32 := fun i =>
  ((∑ k : Fin 128, a (ix2 (i 0) k) * wl (ix2 k (i 1))) + ∑ k : Fin 128, x (ix2 (i 0) k) * wr (ix2 k (i 1)))
    + b (ix2 (0 : Fin 1) (i 1))

/-- The same clamped below at zero. -/
def layerRelu (a x : Vec Ideal S100000x128 .f32) (wl wr : Vec Ideal S128x128 .f32) (b : Vec Ideal S1x128 .f32) :
    Vec Ideal S100000x128 .f32 := fun i => max (layer a x wl wr b i) (Ideal.ofBits .f32 0x00000000#32)

theorem hz : (![0, 0] : Fin 2 → Nat) = fun _ => 0 := funext fun a => by fin_cases a <;> rfl

variable (V : (c : Dev nD) → (b : Ref sig .tc) → Buf (Elt Ideal) ((c : Thread nD τ).loc b))

/-- Row p of the block at grid point t is row 5000 t + p of the array. -/
def row0 (t : Fin cfg0.N) (p : Fin 5000) : Fin 100000 :=
  ⟨5000 * t.val + p.val, by have ht := t.isLt; have hN : cfg0.N = 20 := N_0; have hp := p.isLt; omega⟩

/-- The printed index maps over the grid: the row windows move with the point, the weights and the bias stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each loaded block read where the stored entry reads it -/

theorem blk0_a (c : Dev nD) (t : Fin cfg0.N) (p : Fin 5000) (k : Fin 128) :
    iblk0 V c 0 t (ix2 p k) = V c main_v21 (ix2 (row0 t p) k) := by
  obtain ⟨e0, e1, -⟩ := idx_facts0 t
  show V c main_v21 (((cfg0.win 0).blk t).view.emb (ix2 p k)) = V c main_v21 (ix2 (row0 t p) k)
  have h : ((cfg0.win 0).blk t).view.emb (ix2 p k) = ix2 (row0 t p) k := by
    funext a; apply Fin.ext
    match a with
    | ⟨0, _⟩ => show win0_0.index t (0 : Fin 2) * 5000 + 1 * p.val = 5000 * t.val + p.val; rw [e0]; omega
    | ⟨1, _⟩ => show win0_0.index t (1 : Fin 2) * 128 + 1 * k.val = k.val; rw [e1]; omega
  rw [h]

theorem blk0_x (c : Dev nD) (t : Fin cfg0.N) (p : Fin 5000) (k : Fin 128) :
    iblk0 V c 1 t (ix2 p k) = V c main_arg0 (ix2 (row0 t p) k) := by
  obtain ⟨-, -, e0, e1, -⟩ := idx_facts0 t
  show V c main_arg0 (((cfg0.win 1).blk t).view.emb (ix2 p k)) = V c main_arg0 (ix2 (row0 t p) k)
  have h : ((cfg0.win 1).blk t).view.emb (ix2 p k) = ix2 (row0 t p) k := by
    funext a; apply Fin.ext
    match a with
    | ⟨0, _⟩ => show win0_1.index t (0 : Fin 2) * 5000 + 1 * p.val = 5000 * t.val + p.val; rw [e0]; omega
    | ⟨1, _⟩ => show win0_1.index t (1 : Fin 2) * 128 + 1 * k.val = k.val; rw [e1]; omega
  rw [h]

theorem blk0_wl (c : Dev nD) (t : Fin cfg0.N) (k q : Fin 128) :
    iblk0 V c 2 t (ix2 k q) = V c main_arg1 (ix2 k q) := by
  obtain ⟨-, -, -, -, e0, e1, -⟩ := idx_facts0 t
  show V c main_arg1 (((cfg0.win 2).blk t).view.emb (ix2 k q)) = V c main_arg1 (ix2 k q)
  have h : ((cfg0.win 2).blk t).view.emb (ix2 k q) = ix2 k q := by
    funext a; apply Fin.ext
    match a with
    | ⟨0, _⟩ => show win0_2.index t (0 : Fin 2) * 128 + 1 * k.val = k.val; rw [e0]; omega
    | ⟨1, _⟩ => show win0_2.index t (1 : Fin 2) * 128 + 1 * q.val = q.val; rw [e1]; omega
  rw [h]

theorem blk0_b (c : Dev nD) (t : Fin cfg0.N) (q : Fin 128) :
    iblk0 V c 3 t (ix2 (0 : Fin 1) q) = V c main_v22 (ix2 (0 : Fin 1) q) := by
  obtain ⟨-, -, -, -, -, -, e0, e1, -⟩ := idx_facts0 t
  show V c main_v22 (((cfg0.win 3).blk t).view.emb (ix2 (0 : Fin 1) q)) = V c main_v22 (ix2 (0 : Fin 1) q)
  have h : ((cfg0.win 3).blk t).view.emb (ix2 (0 : Fin 1) q) = ix2 (0 : Fin 1) q := by
    funext a; apply Fin.ext
    match a with
    | ⟨0, _⟩ => show win0_3.index t (0 : Fin 2) * 1 + 1 * 0 = 0; rw [e0]
    | ⟨1, _⟩ => show win0_3.index t (1 : Fin 2) * 128 + 1 * q.val = q.val; rw [e1]; omega
  rw [h]

theorem blk0_wr (c : Dev nD) (t : Fin cfg0.N) (k q : Fin 128) :
    iblk0 V c 4 t (ix2 k q) = V c main_arg3 (ix2 k q) := by
  obtain ⟨-, -, -, -, -, -, -, -, e0, e1, -⟩ := idx_facts0 t
  show V c main_arg3 (((cfg0.win 4).blk t).view.emb (ix2 k q)) = V c main_arg3 (ix2 k q)
  have h : ((cfg0.win 4).blk t).view.emb (ix2 k q) = ix2 k q := by
    funext a; apply Fin.ext
    match a with
    | ⟨0, _⟩ => show win0_4.index t (0 : Fin 2) * 128 + 1 * k.val = k.val; rw [e0]; omega
    | ⟨1, _⟩ => show win0_4.index t (1 : Fin 2) * 128 + 1 * q.val = q.val; rw [e1]; omega
  rw [h]

/-! ## What a point writes back, the cover, the array -/

/-- What point t writes back is block t of the layer's whole-array function of the arrays the region reads. -/
theorem flushed0_eq (c : Dev nD) (t : Fin cfg0.N) :
    (dat0 V c).flushed 5 t = ((cfg0.win 5).blk t).view.read (Elt Ideal)
      (layerRelu (V c main_v21) (V c main_arg0) (V c main_arg1) (V c main_arg3) (V c main_v22)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts0 t
  funext j
  obtain ⟨p, q, rfl⟩ : ∃ (p : Fin 5000) (q : Fin 128), j = ix2 p q := ⟨j 0, j 1, eq_ix2 j⟩
  have hemb : ((cfg0.win 5).blk t).view.emb (ix2 p q) = ix2 (row0 t p) q := by
    funext a; apply Fin.ext
    match a with
    | ⟨0, _⟩ => show win0_5.index t (0 : Fin 2) * 5000 + 1 * p.val = 5000 * t.val + p.val; rw [e0]; omega
    | ⟨1, _⟩ => show win0_5.index t (1 : Fin 2) * 128 + 1 * q.val = q.val; rw [e1]; omega
  show k0_pay1 (iblk0 V c 0 t) (iblk0 V c 1 t) (iblk0 V c 2 t) (iblk0 V c 4 t) (iblk0 V c 3 t) (ix2 p q)
    = layerRelu (V c main_v21) (V c main_arg0) (V c main_arg1) (V c main_arg3) (V c main_v22) (((cfg0.win 5).blk t).view.emb (ix2 p q))
  rw [hemb]
  refine (pay0_apply _ _ _ _ _ p q).trans ?_
  simp only [blk0_a V c t, blk0_x V c t, blk0_wl V c t, blk0_wr V c t, blk0_b V c t]
  rfl

/-- Every row of the result array lies in the block of the point its row number divided by 5000 names. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_5 _, ?_⟩
  obtain ⟨-, -, -, -, -, -, -, -, -, -, e0, e1⟩ := idx_facts0 ⟨(i 0).val / 5000, ht⟩
  show i ∈ ((View.whole main_v23).slice (win0_5.rect ⟨(i 0).val / 5000, ht⟩)).set
  rw [View.set_slice_whole, Rect.mem_set_unit]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

/-- The result array after the region is the layer's whole-array function of the arrays the region reads. -/
theorem final0 (c : Dev nD) :
    (dat0 V c).arrAt 5 cfg0.N = layerRelu (V c main_v21) (V c main_arg0) (V c main_arg1) (V c main_arg3) (V c main_v22) :=
  (dat0 V c).arrAt_eq_of_cover 5 _ (fun t _ => flushed0_eq V c t) (cover0)

end Cert.KernelIdeal.Dense

end
-- ==== Proof.Layer2.lean ====
/-
  The second region's result array as one function of the arrays it reads: the same tiling by 20 row blocks of
  5000 rows as the first region, the stored entry the dense layer's entry without the clamp.
-/
import proofs.«122435_j83356725281166_1_alg».proof.Proof.Gen.KernelIdeal.Frame
import proofs.«122435_j83356725281166_1_alg».proof.Proof.Payload
import proofs.«122435_j83356725281166_1_alg».proof.Proof.Layer1
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

variable (V : (c : Dev nD) → (b : Ref sig .tc) → Buf (Elt Ideal) ((c : Thread nD τ).loc b))

/-- Row p of the block at grid point t is row 5000 t + p of the array. -/
def row1 (t : Fin cfg1.N) (p : Fin 5000) : Fin 100000 :=
  ⟨5000 * t.val + p.val, by have ht := t.isLt; have hN : cfg1.N = 20 := N_1; have hp := p.isLt; omega⟩

/-- The printed index maps over the grid: the row windows move with the point, the weights and the bias stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each loaded block read where the stored entry reads it -/

theorem blk1_a (c : Dev nD) (t : Fin cfg1.N) (p : Fin 5000) (k : Fin 128) :
    iblk1 V c 0 t (ix2 p k) = V c main_v41 (ix2 (row1 t p) k) := by
  obtain ⟨e0, e1, -⟩ := idx_facts1 t
  show V c main_v41 (((cfg1.win 0).blk t).view.emb (ix2 p k)) = V c main_v41 (ix2 (row1 t p) k)
  have h : ((cfg1.win 0).blk t).view.emb (ix2 p k) = ix2 (row1 t p) k := by
    funext a; apply Fin.ext
    match a with
    | ⟨0, _⟩ => show win1_0.index t (0 : Fin 2) * 5000 + 1 * p.val = 5000 * t.val + p.val; rw [e0]; omega
    | ⟨1, _⟩ => show win1_0.index t (1 : Fin 2) * 128 + 1 * k.val = k.val; rw [e1]; omega
  rw [h]

theorem blk1_x (c : Dev nD) (t : Fin cfg1.N) (p : Fin 5000) (k : Fin 128) :
    iblk1 V c 1 t (ix2 p k) = V c main_v23 (ix2 (row1 t p) k) := by
  obtain ⟨-, -, e0, e1, -⟩ := idx_facts1 t
  show V c main_v23 (((cfg1.win 1).blk t).view.emb (ix2 p k)) = V c main_v23 (ix2 (row1 t p) k)
  have h : ((cfg1.win 1).blk t).view.emb (ix2 p k) = ix2 (row1 t p) k := by
    funext a; apply Fin.ext
    match a with
    | ⟨0, _⟩ => show win1_1.index t (0 : Fin 2) * 5000 + 1 * p.val = 5000 * t.val + p.val; rw [e0]; omega
    | ⟨1, _⟩ => show win1_1.index t (1 : Fin 2) * 128 + 1 * k.val = k.val; rw [e1]; omega
  rw [h]

theorem blk1_wl (c : Dev nD) (t : Fin cfg1.N) (k q : Fin 128) :
    iblk1 V c 2 t (ix2 k q) = V c main_arg4 (ix2 k q) := by
  obtain ⟨-, -, -, -, e0, e1, -⟩ := idx_facts1 t
  show V c main_arg4 (((cfg1.win 2).blk t).view.emb (ix2 k q)) = V c main_arg4 (ix2 k q)
  have h : ((cfg1.win 2).blk t).view.emb (ix2 k q) = ix2 k q := by
    funext a; apply Fin.ext
    match a with
    | ⟨0, _⟩ => show win1_2.index t (0 : Fin 2) * 128 + 1 * k.val = k.val; rw [e0]; omega
    | ⟨1, _⟩ => show win1_2.index t (1 : Fin 2) * 128 + 1 * q.val = q.val; rw [e1]; omega
  rw [h]

theorem blk1_b (c : Dev nD) (t : Fin cfg1.N) (q : Fin 128) :
    iblk1 V c 3 t (ix2 (0 : Fin 1) q) = V c main_v42 (ix2 (0 : Fin 1) q) := by
  obtain ⟨-, -, -, -, -, -, e0, e1, -⟩ := idx_facts1 t
  show V c main_v42 (((cfg1.win 3).blk t).view.emb (ix2 (0 : Fin 1) q)) = V c main_v42 (ix2 (0 : Fin 1) q)
  have h : ((cfg1.win 3).blk t).view.emb (ix2 (0 : Fin 1) q) = ix2 (0 : Fin 1) q := by
    funext a; apply Fin.ext
    match a with
    | ⟨0, _⟩ => show win1_3.index t (0 : Fin 2) * 1 + 1 * 0 = 0; rw [e0]
    | ⟨1, _⟩ => show win1_3.index t (1 : Fin 2) * 128 + 1 * q.val = q.val; rw [e1]; omega
  rw [h]

theorem blk1_wr (c : Dev nD) (t : Fin cfg1.N) (k q : Fin 128) :
    iblk1 V c 4 t (ix2 k q) = V c main_arg6 (ix2 k q) := by
  obtain ⟨-, -, -, -, -, -, -, -, e0, e1, -⟩ := idx_facts1 t
  show V c main_arg6 (((cfg1.win 4).blk t).view.emb (ix2 k q)) = V c main_arg6 (ix2 k q)
  have h : ((cfg1.win 4).blk t).view.emb (ix2 k q) = ix2 k q := by
    funext a; apply Fin.ext
    match a with
    | ⟨0, _⟩ => show win1_4.index t (0 : Fin 2) * 128 + 1 * k.val = k.val; rw [e0]; omega
    | ⟨1, _⟩ => show win1_4.index t (1 : Fin 2) * 128 + 1 * q.val = q.val; rw [e1]; omega
  rw [h]

/-! ## What a point writes back, the cover, the array -/

/-- What point t writes back is block t of the layer's whole-array function of the arrays the region reads. -/
theorem flushed1_eq (c : Dev nD) (t : Fin cfg1.N) :
    (dat1 V c).flushed 5 t = ((cfg1.win 5).blk t).view.read (Elt Ideal)
      (layer (V c main_v41) (V c main_v23) (V c main_arg4) (V c main_arg6) (V c main_v42)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts1 t
  funext j
  obtain ⟨p, q, rfl⟩ : ∃ (p : Fin 5000) (q : Fin 128), j = ix2 p q := ⟨j 0, j 1, eq_ix2 j⟩
  have hemb : ((cfg1.win 5).blk t).view.emb (ix2 p q) = ix2 (row1 t p) q := by
    funext a; apply Fin.ext
    match a with
    | ⟨0, _⟩ => show win1_5.index t (0 : Fin 2) * 5000 + 1 * p.val = 5000 * t.val + p.val; rw [e0]; omega
    | ⟨1, _⟩ => show win1_5.index t (1 : Fin 2) * 128 + 1 * q.val = q.val; rw [e1]; omega
  show k1_pay1 (iblk1 V c 0 t) (iblk1 V c 1 t) (iblk1 V c 2 t) (iblk1 V c 4 t) (iblk1 V c 3 t) (ix2 p q)
    = layer (V c main_v41) (V c main_v23) (V c main_arg4) (V c main_arg6) (V c main_v42) (((cfg1.win 5).blk t).view.emb (ix2 p q))
  rw [hemb]
  refine (pay1_apply _ _ _ _ _ p q).trans ?_
  simp only [blk1_a V c t, blk1_x V c t, blk1_wl V c t, blk1_wr V c t, blk1_b V c t]
  rfl

/-- Every row of the result array lies in the block of the point its row number divided by 5000 names. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_5 _, ?_⟩
  obtain ⟨-, -, -, -, -, -, -, -, -, -, e0, e1⟩ := idx_facts1 ⟨(i 0).val / 5000, ht⟩
  show i ∈ ((View.whole main_v43).slice (win1_5.rect ⟨(i 0).val / 5000, ht⟩)).set
  rw [View.set_slice_whole, Rect.mem_set_unit]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e1]; omega

/-- The result array after the region is the layer's whole-array function of the arrays the region reads. -/
theorem final1 (c : Dev nD) :
    (dat1 V c).arrAt 5 cfg1.N = layer (V c main_v41) (V c main_v23) (V c main_arg4) (V c main_arg6) (V c main_v42) :=
  (dat1 V c).arrAt_eq_of_cover 5 _ (fun t _ => flushed1_eq V c t) (cover1)

end Cert.KernelIdeal.Dense

end
-- ==== Proof.Decoder.lean ====
/-
  The third region's result array as one function of the arrays it reads.

  The decoder runs over 100 grid points; point t loads rows 5000 t … 5000 t + 4999 of the two gathered endpoint
  arrays, the two halves of the first weight matrix, the first bias row, the output column and the output bias
  whole, and writes back the same rows of the one-column result.  The stored entry is the two-layer perceptron's
  value at that pair: the hidden row (two products over the 128 features, bias, clamp at zero) against the output
  column, plus the output bias.  Each write-back is a block of one whole-array function and the hundred blocks
  tile the rows.
-/
import proofs.«122435_j83356725281166_1_alg».proof.Proof.Gen.KernelIdeal.Frame
import proofs.«122435_j83356725281166_1_alg».proof.Proof.Payload
import proofs.«122435_j83356725281166_1_alg».proof.Proof.Layer1
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

/-- The decoder on whole arrays: entry (i, 0) is the hidden row of pair i — over each of the 128 hidden units the
    first endpoint's row against the upper half of the weights plus the second endpoint's row against the lower
    half plus the bias, clamped at zero — against the output column, plus the output bias. -/
def decode (h0 h1 : Vec Ideal S500000x128 .f32) (wa wb : Vec Ideal S128x128 .f32) (b1 : Vec Ideal S1x128 .f32)
    (w2 : Vec Ideal S128x1 .f32) (b2 : Vec Ideal S1x1 .f32) : Vec Ideal S500000x1 .f32 := fun i =>
  (∑ j : Fin 128, max (((∑ k : Fin 128, h0 (ix2 (i 0) k) * wa (ix2 k j)) + ∑ k : Fin 128, h1 (ix2 (i 0) k) * wb (ix2 k j))
      + b1 (ix2 (0 : Fin 1) j)) (Ideal.ofBits .f32 0x00000000#32) * w2 (ix2 j (i 1)))
    + b2 (ix2 (0 : Fin 1) (i 1))

variable (V : (c : Dev nD) → (b : Ref sig .tc) → Buf (Elt Ideal) ((c : Thread nD τ).loc b))

/-- Row p of the block at grid point t is row 5000 t + p of the array. -/
def row2 (t : Fin cfg2.N) (p : Fin 5000) : Fin 500000 :=
  ⟨5000 * t.val + p.val, by have ht := t.isLt; have hN : cfg2.N = 100 := N_2; have hp := p.isLt; omega⟩

/-- The printed index maps over the grid: the two row windows and the result move with the point, the rest stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-! ## Each loaded block read where the stored entry reads it -/

theorem blk2_h0 (c : Dev nD) (t : Fin cfg2.N) (p : Fin 5000) (k : Fin 128) :
    iblk2 V c 0 t (ix2 p k) = V c main_v54 (ix2 (row2 t p) k) := by
  obtain ⟨e0, e1, -⟩ := idx_facts2 t
  show V c main_v54 (((cfg2.win 0).blk t).view.emb (ix2 p k)) = V c main_v54 (ix2 (row2 t p) k)
  have h : ((cfg2.win 0).blk t).view.emb (ix2 p k) = ix2 (row2 t p) k := by
    funext a; apply Fin.ext
    match a with
    | ⟨0, _⟩ => show win2_0.index t (0 : Fin 2) * 5000 + 1 * p.val = 5000 * t.val + p.val; rw [e0]; omega
    | ⟨1, _⟩ => show win2_0.index t (1 : Fin 2) * 128 + 1 * k.val = k.val; rw [e1]; omega
  rw [h]

theorem blk2_h1 (c : Dev nD) (t : Fin cfg2.N) (p : Fin 5000) (k : Fin 128) :
    iblk2 V c 1 t (ix2 p k) = V c main_v61 (ix2 (row2 t p) k) := by
  obtain ⟨-, -, e0, e1, -⟩ := idx_facts2 t
  show V c main_v61 (((cfg2.win 1).blk t).view.emb (ix2 p k)) = V c main_v61 (ix2 (row2 t p) k)
  have h : ((cfg2.win 1).blk t).view.emb (ix2 p k) = ix2 (row2 t p) k := by
    funext a; apply Fin.ext
    match a with
    | ⟨0, _⟩ => show win2_1.index t (0 : Fin 2) * 5000 + 1 * p.val = 5000 * t.val + p.val; rw [e0]; omega
    | ⟨1, _⟩ => show win2_1.index t (1 : Fin 2) * 128 + 1 * k.val = k.val; rw [e1]; omega
  rw [h]

theorem blk2_wa (c : Dev nD) (t : Fin cfg2.N) (k q : Fin 128) :
    iblk2 V c 2 t (ix2 k q) = V c main_v62 (ix2 k q) := by
  obtain ⟨-, -, -, -, e0, e1, -⟩ := idx_facts2 t
  show V c main_v62 (((cfg2.win 2).blk t).view.emb (ix2 k q)) = V c main_v62 (ix2 k q)
  have h : ((cfg2.win 2).blk t).view.emb (ix2 k q) = ix2 k q := by
    funext a; apply Fin.ext
    match a with
    | ⟨0, _⟩ => show win2_2.index t (0 : Fin 2) * 128 + 1 * k.val = k.val; rw [e0]; omega
    | ⟨1, _⟩ => show win2_2.index t (1 : Fin 2) * 128 + 1 * q.val = q.val; rw [e1]; omega
  rw [h]

theorem blk2_wb (c : Dev nD) (t : Fin cfg2.N) (k q : Fin 128) :
    iblk2 V c 3 t (ix2 k q) = V c main_v63 (ix2 k q) := by
  obtain ⟨-, -, -, -, -, -, e0, e1, -⟩ := idx_facts2 t
  show V c main_v63 (((cfg2.win 3).blk t).view.emb (ix2 k q)) = V c main_v63 (ix2 k q)
  have h : ((cfg2.win 3).blk t).view.emb (ix2 k q) = ix2 k q := by
    funext a; apply Fin.ext
    match a with
    | ⟨0, _⟩ => show win2_3.index t (0 : Fin 2) * 128 + 1 * k.val = k.val; rw [e0]; omega
    | ⟨1, _⟩ => show win2_3.index t (1 : Fin 2) * 128 + 1 * q.val = q.val; rw [e1]; omega
  rw [h]

theorem blk2_b1 (c : Dev nD) (t : Fin cfg2.N) (q : Fin 128) :
    iblk2 V c 4 t (ix2 (0 : Fin 1) q) = V c main_v64 (ix2 (0 : Fin 1) q) := by
  obtain ⟨-, -, -, -, -, -, -, -, e0, e1, -⟩ := idx_facts2 t
  show V c main_v64 (((cfg2.win 4).blk t).view.emb (ix2 (0 : Fin 1) q)) = V c main_v64 (ix2 (0 : Fin 1) q)
  have h : ((cfg2.win 4).blk t).view.emb (ix2 (0 : Fin 1) q) = ix2 (0 : Fin 1) q := by
    funext a; apply Fin.ext
    match a with
    | ⟨0, _⟩ => show win2_4.index t (0 : Fin 2) * 1 + 1 * 0 = 0; rw [e0]
    | ⟨1, _⟩ => show win2_4.index t (1 : Fin 2) * 128 + 1 * q.val = q.val; rw [e1]; omega
  rw [h]

theorem blk2_w2 (c : Dev nD) (t : Fin cfg2.N) (k : Fin 128) (q : Fin 1) :
    iblk2 V c 5 t (ix2 k q) = V c main_arg9 (ix2 k q) := by
  obtain ⟨-, -, -, -, -, -, -, -, -, -, e0, e1, -⟩ := idx_facts2 t
  show V c main_arg9 (((cfg2.win 5).blk t).view.emb (ix2 k q)) = V c main_arg9 (ix2 k q)
  have h : ((cfg2.win 5).blk t).view.emb (ix2 k q) = ix2 k q := by
    funext a; apply Fin.ext
    match a with
    | ⟨0, _⟩ => show win2_5.index t (0 : Fin 2) * 128 + 1 * k.val = k.val; rw [e0]; omega
    | ⟨1, _⟩ => show win2_5.index t (1 : Fin 2) * 1 + 1 * q.val = q.val; rw [e1]; omega
  rw [h]

theorem blk2_b2 (c : Dev nD) (t : Fin cfg2.N) (q : Fin 1) :
    iblk2 V c 6 t (ix2 (0 : Fin 1) q) = V c main_v65 (ix2 (0 : Fin 1) q) := by
  obtain ⟨-, -, -, -, -, -, -, -, -, -, -, -, e0, e1, -⟩ := idx_facts2 t
  show V c main_v65 (((cfg2.win 6).blk t).view.emb (ix2 (0 : Fin 1) q)) = V c main_v65 (ix2 (0 : Fin 1) q)
  have h : ((cfg2.win 6).blk t).view.emb (ix2 (0 : Fin 1) q) = ix2 (0 : Fin 1) q := by
    funext a; apply Fin.ext
    match a with
    | ⟨0, _⟩ => show win2_6.index t (0 : Fin 2) * 1 + 1 * 0 = 0; rw [e0]
    | ⟨1, _⟩ => show win2_6.index t (1 : Fin 2) * 1 + 1 * q.val = q.val; rw [e1]; omega
  rw [h]

/-! ## What a point writes back, the cover, the array -/

/-- What point t writes back is block t of the decoder's whole-array function of the arrays the region reads. -/
theorem flushed2_eq (c : Dev nD) (t : Fin cfg2.N) :
    (dat2 V c).flushed 7 t = ((cfg2.win 7).blk t).view.read (Elt Ideal)
      (decode (V c main_v54) (V c main_v61) (V c main_v62) (V c main_v63) (V c main_v64) (V c main_arg9) (V c main_v65)) := by
  show (cfg2.win 7).cut (grid2.coords t) ((dat2 V c).after 7 t) = _
  rw [after2_7]
  unfold out2_7
  rw [View.canon_unit_zero hz]
  simp only [View.ld_unit_zero (S := S5000x128) hz, View.ld_unit_zero (S := S128x128) hz, View.ld_unit_zero (S := S1x128) hz,
    View.ld_unit_zero (S := S128x1) hz, View.ld_unit_zero (S := S1x1) hz]
  obtain ⟨-, -, -, -, -, -, -, -, -, -, -, -, -, -, e0, e1⟩ := idx_facts2 t
  funext j
  obtain ⟨p, q, rfl⟩ : ∃ (p : Fin 5000) (q : Fin 1), j = ix2 p q := ⟨j 0, j 1, eq_ix2 j⟩
  have hemb : ((cfg2.win 7).blk t).view.emb (ix2 p q) = ix2 (row2 t p) q := by
    funext a; apply Fin.ext
    match a with
    | ⟨0, _⟩ => show win2_7.index t (0 : Fin 2) * 5000 + 1 * p.val = 5000 * t.val + p.val; rw [e0]; omega
    | ⟨1, _⟩ => show win2_7.index t (1 : Fin 2) * 1 + 1 * q.val = q.val; rw [e1]; omega
  show k2_pay1 (iblk2 V c 0 t) (iblk2 V c 1 t) (iblk2 V c 2 t) (iblk2 V c 3 t) (iblk2 V c 4 t) (iblk2 V c 5 t) (iblk2 V c 6 t) (ix2 p q)
    = decode (V c main_v54) (V c main_v61) (V c main_v62) (V c main_v63) (V c main_v64) (V c main_arg9) (V c main_v65)
        (((cfg2.win 7).blk t).view.emb (ix2 p q))
  rw [hemb]
  refine (pay2_apply _ _ _ _ _ _ _ p q).trans ?_
  simp only [blk2_h0 V c t, blk2_h1 V c t, blk2_wa V c t, blk2_wb V c t, blk2_b1 V c t, blk2_w2 V c t, blk2_b2 V c t]
  rfl

/-- Every row of the result array lies in the block of the point its row number divided by 5000 names. -/
theorem cover2 (i : S500000x1.Idx) :
    ∃ t : Fin cfg2.N, (cfg2.win 7).flush t = true ∧ i ∈ ((cfg2.win 7).blk t).view.set := by
  have hi0 : (i 0).val < 500000 := (i 0).isLt
  have hi1 : (i 1).val < 1 := (i 1).isLt
  have hN : cfg2.N = 100 := N_2
  have ht : (i 0).val / 5000 < cfg2.N := by rw [hN]; omega
  refine ⟨⟨(i 0).val / 5000, ht⟩, flush2_7 _, ?_⟩
  obtain ⟨-, -, -, -, -, -, -, -, -, -, -, -, -, -, e0, e1⟩ := idx_facts2 ⟨(i 0).val / 5000, ht⟩
  show i ∈ ((View.whole main_v66).slice (win2_7.rect ⟨(i 0).val / 5000, ht⟩)).set
  rw [View.set_slice_whole, Rect.mem_set_unit]
  intro a
  match a with
  | ⟨0, _⟩ =>
    show win2_7.index ⟨(i 0).val / 5000, ht⟩ (0 : Fin 2) * 5000 ≤ (i 0).val
      ∧ (i 0).val < win2_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_7.index ⟨(i 0).val / 5000, ht⟩ (1 : Fin 2) * 1 ≤ (i 1).val
      ∧ (i 1).val < win2_7.index ⟨(i 0).val / 5000, ht⟩ (1 : Fin 2) * 1 + 1
    rw [e1]; omega

/-- The result array after the region is the decoder's whole-array function of the arrays the region reads. -/
theorem final2 (c : Dev nD) :
    (dat2 V c).arrAt 7 cfg2.N
      = decode (V c main_v54) (V c main_v61) (V c main_v62) (V c main_v63) (V c main_v64) (V c main_arg9) (V c main_v65) :=
  (dat2 V c).arrAt_eq_of_cover 7 _ (fun t _ => flushed2_eq V c t) (cover2)

end Cert.KernelIdeal.Dense

end
-- ==== Proof.RefDense.lean ====
/-
  The reference's dense stages are the kernel's whole-array functions.

  Each SAGE layer of the reference is (A·W_l + bias) + X·W_r on the host, the kernel's is (A·W_l + X·W_r) + bias:
  the same three terms of the extended reals regrouped, which is associativity and commutativity of addition
  alone.  The reference's decoder multiplies the concatenated endpoint rows [h0 | h1] by the whole first weight
  matrix; a sum over the 256 concatenated features is the sum over the first 128 (the first endpoint against the
  upper half of the matrix) plus the sum over the last 128 (the second endpoint against the lower half), which is
  how the kernel computes it.  No law used here needs the entries to be finite.
-/
import proofs.«122435_j83356725281166_1_alg».proof.Proof.Gen.ReferenceIdeal.Read
import proofs.«122435_j83356725281166_1_alg».proof.Proof.Layer1
import proofs.«122435_j83356725281166_1_alg».proof.Proof.Decoder

noncomputable section

open Idealize.ShloMosaic Idealize.ShloMosaic.ValueIdx

namespace Cert.ReferenceIdeal.RefValue

open Cert.ReferenceIdeal Cert.ReferenceIdeal.Gen Cert.ReferenceIdeal.Read
open Cert.KernelIdeal.Dense (layer layerRelu decode)

/-- A sum over 256 positions is the sum over the first 128 plus the sum over the last 128. -/
theorem sum_halves {M : Type} [AddCommMonoid M] (f : Fin 256 → M) :
    ∑ k : Fin 256, f k = (∑ k : Fin 128, f ⟨k.val, by omega⟩) + ∑ k : Fin 128, f ⟨128 + k.val, by omega⟩ :=
  Fin.sum_univ_add (a := 128) (b := 128) f

/-! ## The aggregation the two programs share -/

/-- The rows of `h` at the edges' sources (a negative index wrapped by the row count) added up at the edges'
    destinations. -/
def aggSum (h : (⟨S100000x128, .f32⟩ : BufTy).Contents (Elt Ideal)) (s d : (⟨S1600000, .i32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The in-degree of every node: a one per edge added up at the edges' destinations. -/
def degSum (d : (⟨S1600000, .i32⟩ : BufTy).Contents (Elt Ideal)) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- The in-degree clipped below at `one`. -/
def degClip (one : (⟨S_, .f32⟩ : BufTy).Contents (Elt Ideal)) (deg : (⟨S100000, .f32⟩ : BufTy).Contents (Elt Ideal)) :
    (⟨S100000, .f32⟩ : BufTy).Contents (Elt Ideal) :=
  maximumf (F := Ideal) (φ := .f32) (broadcastInDim (α := Elt Ideal .f32) S100000 ![] bcast_S_S100000 (id one)) deg

/-- A per-node sum divided by a per-node count, row by row. -/
def rowDiv (sum : (⟨S100000x128, .f32⟩ : BufTy).Contents (Elt Ideal)) (cnt : (⟨S100000, .f32⟩ : BufTy).Contents (Elt Ideal)) : (⟨S100000x128, .f32⟩ : BufTy).Contents (Elt Ideal) :=
  Host.divf (F := Ideal) (φ := .f32) sum
    (broadcastInDim (α := Elt Ideal .f32) S100000x128 ![0, 1] bcast_S100000x1_S100000x128_0_1
      (broadcastInDim (α := Elt Ideal .f32) S100000x1 ![0] bcast_S100000_S100000x1_0 cnt))

/-- The mean of the neighbours' rows over the in-edges, as both programs compute it on the host: the summed rows
    divided by the in-degree clipped below at one. -/
def aggMean (h : (⟨S100000x128, .f32⟩ : BufTy).Contents (Elt Ideal)) (s d : (⟨S1600000, .i32⟩ : BufTy).Contents (Elt Ideal)) : (⟨S100000x128, .f32⟩ : BufTy).Contents (Elt Ideal) :=
  rowDiv (aggSum h s d) (degClip (constant (F := Ideal) S_ .f32 0x3F800000#32) (degSum d))

/-- The reference's first aggregate is the aggregation of the features. -/
theorem agg_first (x0 : (⟨S100000x128, .f32⟩ : BufTy).Contents (Elt Ideal)) (x11 : (⟨S2x1600000, .i32⟩ : BufTy).Contents (Elt Ideal)) :
    val_main_v21 (F := Ideal) x0 x11 = aggMean x0 (val_main_v30 (F := Ideal) x11) (val_main_v32 (F := Ideal) x11) := rfl

/-- Its second aggregate is the aggregation of the first hidden array over the same edges. -/
theorem agg_second (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x11 : (⟨S2x1600000, .i32⟩ : BufTy).Contents (Elt Ideal)) :
    val_main_v50 (F := Ideal) x0 x1 x2 x3 x11
      = aggMean (val_main_v28 (F := Ideal) x0 x1 x2 x3 x11) (val_main_v30 (F := Ideal) x11) (val_main_v32 (F := Ideal) x11) := rfl

/-! ## The first layer -/

theorem layer1_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x11 : (⟨S2x1600000, .i32⟩ : BufTy).Contents (Elt Ideal)) (B : (⟨S1x128, .f32⟩ : BufTy).Contents (Elt Ideal))
    (hB : ∀ q : Fin 128, B (ix2 (0 : Fin 1) q) = x2 (ix1 q)) :
    layerRelu (val_main_v21 (F := Ideal) x0 x11) x0 x1 x3 B = val_main_v28 (F := Ideal) x0 x1 x2 x3 x11 := by
  funext i
  obtain ⟨r, q, rfl⟩ : ∃ (r : Fin 100000) (q : Fin 128), i = ix2 r q := ⟨i 0, i 1, eq_ix2 i⟩
  rw [val_main_v28_apply, val_main_v27_apply, val_main_v25_apply, val_main_v22_apply, val_main_v24_apply, val_main_v23_apply,
    val_main_v26_apply, val_main_call1_v0_apply, val_main_call1_cst_apply]
  have el : ∀ k, lidx_main_v22 (ix2 r q) k = ix2 r k := fun k => funext fun a => by match a with | ⟨0, _⟩ => rfl | ⟨1, _⟩ => rfl
  have er : ∀ k, ridx_main_v22 (ix2 r q) k = ix2 k q := fun k => funext fun a => by match a with | ⟨0, _⟩ => rfl | ⟨1, _⟩ => rfl
  have el' : ∀ k, lidx_main_v26 (ix2 r q) k = ix2 r k := fun k => funext fun a => by match a with | ⟨0, _⟩ => rfl | ⟨1, _⟩ => rfl
  have er' : ∀ k, ridx_main_v26 (ix2 r q) k = ix2 k q := fun k => funext fun a => by match a with | ⟨0, _⟩ => rfl | ⟨1, _⟩ => rfl
  have eb : idx_main_v23 (idx_main_v24 (ix2 r q)) = ix1 q := funext fun a => by match a with | ⟨0, _⟩ => rfl
  simp only [el, er, el', er', eb]
  show max (((∑ k : Fin 128, val_main_v21 (F := Ideal) x0 x11 (ix2 r k) * x1 (ix2 k q)) + ∑ k : Fin 128, x0 (ix2 r k) * x3 (ix2 k q))
      + B (ix2 (0 : Fin 1) q)) (Ideal.ofBits .f32 0x00000000#32)
    = max (((∑ k : Fin 128, val_main_v21 (F := Ideal) x0 x11 (ix2 r k) * x1 (ix2 k q)) + x2 (ix1 q))
      + ∑ k : Fin 128, x0 (ix2 r k) * x3 (ix2 k q)) (Ideal.ofBits .f32 0x00000000#32)
  rw [hB, add_right_comm]

/-! ## The second layer -/

theorem layer2_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 x4 : (⟨S128x128, .f32⟩ : BufTy).Contents (Elt Ideal))
    (x5 : (⟨S128, .f32⟩ : BufTy).Contents (Elt Ideal)) (x6 : (⟨S128x128, .f32⟩ : BufTy).Contents (Elt Ideal))
    (x11 : (⟨S2x1600000, .i32⟩ : BufTy).Contents (Elt Ideal)) (B : (⟨S1x128, .f32⟩ : BufTy).Contents (Elt Ideal))
    (hB : ∀ q : Fin 128, B (ix2 (0 : Fin 1) q) = x5 (ix1 q)) :
    layer (val_main_v50 (F := Ideal) x0 x1 x2 x3 x11) (val_main_v28 (F := Ideal) x0 x1 x2 x3 x11) x4 x6 B
      = val_main_v56 (F := Ideal) x0 x1 x2 x3 x4 x5 x6 x11 := by
  funext i
  obtain ⟨r, q, rfl⟩ : ∃ (r : Fin 100000) (q : Fin 128), i = ix2 r q := ⟨i 0, i 1, eq_ix2 i⟩
  rw [val_main_v56_apply, val_main_v54_apply, val_main_v51_apply, val_main_v53_apply, val_main_v52_apply, val_main_v55_apply]
  have el : ∀ k, lidx_main_v51 (ix2 r q) k = ix2 r k := fun k => funext fun a => by match a with | ⟨0, _⟩ => rfl | ⟨1, _⟩ => rfl
  have er : ∀ k, ridx_main_v51 (ix2 r q) k = ix2 k q := fun k => funext fun a => by match a with | ⟨0, _⟩ => rfl | ⟨1, _⟩ => rfl
  have el' : ∀ k, lidx_main_v55 (ix2 r q) k = ix2 r k := fun k => funext fun a => by match a with | ⟨0, _⟩ => rfl | ⟨1, _⟩ => rfl
  have er' : ∀ k, ridx_main_v55 (ix2 r q) k = ix2 k q := fun k => funext fun a => by match a with | ⟨0, _⟩ => rfl | ⟨1, _⟩ => rfl
  have eb : idx_main_v52 (idx_main_v53 (ix2 r q)) = ix1 q := funext fun a => by match a with | ⟨0, _⟩ => rfl
  simp only [el, er, el', er', eb]
  show ((∑ k : Fin 128, val_main_v50 (F := Ideal) x0 x1 x2 x3 x11 (ix2 r k) * x4 (ix2 k q))
        + ∑ k : Fin 128, val_main_v28 (F := Ideal) x0 x1 x2 x3 x11 (ix2 r k) * x6 (ix2 k q)) + B (ix2 (0 : Fin 1) q)
    = ((∑ k : Fin 128, val_main_v50 (F := Ideal) x0 x1 x2 x3 x11 (ix2 r k) * x4 (ix2 k q)) + x5 (ix1 q))
        + ∑ k : Fin 128, val_main_v28 (F := Ideal) x0 x1 x2 x3 x11 (ix2 r k) * x6 (ix2 k q)
  rw [hB, add_right_comm]

/-! ## The decoder -/

/-- The concatenated endpoint rows at a position of the first half: the first endpoint's row. -/
theorem cat_left (h0 h1 : S500000x128.Idx → EReal) (r : Fin 500000) (k : Fin 128) :
    concatenate S500000x256 1 [⟨S500000x128, h0⟩, ⟨S500000x128, h1⟩] concatenates_S500000x128_S500000x128_S500000x256_d1
      (ix2 r (⟨k.val, by omega⟩ : Fin 256)) = h0 (ix2 r k) :=
  concatenate_pair_apply_left (1 : Fin S500000x256.rank) h0 h1 concatenates_S500000x128_S500000x128_S500000x256_d1 _ rfl (ix2 r k)
    (fun b => by match b with | ⟨0, _⟩ => rfl | ⟨1, _⟩ => rfl)

/-- At a position of the second half: the second endpoint's row. -/
theorem cat_right (h0 h1 : S500000x128.Idx → EReal) (r : Fin 500000) (k : Fin 128) :
    concatenate S500000x256 1 [⟨S500000x128, h0⟩, ⟨S500000x128, h1⟩] concatenates_S500000x128_S500000x128_S500000x256_d1
      (ix2 r (⟨128 + k.val, by omega⟩ : Fin 256)) = h1 (ix2 r k) :=
  concatenate_pair_apply_right (1 : Fin S500000x256.rank) h0 h1 concatenates_S500000x128_S500000x128_S500000x256_d1 _ rfl rfl (ix2 r k)
    (fun b hb => by match b with | ⟨0, _⟩ => rfl | ⟨1, _⟩ => exact absurd rfl hb)
    (by show k.val + 128 = 128 + k.val; omega)

/-- One hidden unit of the reference's decoder at a pair: the concatenated row against column j of the whole
    weight matrix is the first endpoint's row against the upper half plus the second's against the lower half. -/
theorem hidden_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S256x128, .f32⟩ : BufTy).Contents (Elt Ideal)) (x8 : (⟨S128, .f32⟩ : BufTy).Contents (Elt Ideal))
    (x11 : (⟨S2x1600000, .i32⟩ : BufTy).Contents (Elt Ideal)) (x12 : (⟨S2x500000, .i32⟩ : BufTy).Contents (Elt Ideal))
    (r : Fin 500000) (j : Fin 128) :
    val_main_v80 (F := Ideal) x0 x1 x2 x3 x4 x5 x6 x7 x8 x11 x12 (ix2 r j)
      = max (((∑ k : Fin 128, val_main_v65 (F := Ideal) x0 x1 x2 x3 x4 x5 x6 x11 x12 (ix2 r k) * x7 (ix2 (⟨k.val, by omega⟩ : Fin 256) j))
          + ∑ k : Fin 128, val_main_v74 (F := Ideal) x0 x1 x2 x3 x4 x5 x6 x11 x12 (ix2 r k) * x7 (ix2 (⟨128 + k.val, by omega⟩ : Fin 256) j))
          + x8 (ix1 j)) (Ideal.ofBits .f32 0x00000000#32) := by
  rw [val_main_v80_apply, val_main_v79_apply, val_main_v76_apply, val_main_v78_apply, val_main_v77_apply,
    val_main_call3_v0_apply, val_main_call3_cst_apply, sum_halves]
  have e76l : ∀ k : Fin 256, lidx_main_v76 (ix2 r j) k = ix2 r k :=
    fun k => funext fun a => by match a with | ⟨0, _⟩ => rfl | ⟨1, _⟩ => rfl
  have e76r : ∀ k : Fin 256, ridx_main_v76 (ix2 r j) k = ix2 k j :=
    fun k => funext fun a => by match a with | ⟨0, _⟩ => rfl | ⟨1, _⟩ => rfl
  have e78 : idx_main_v77 (idx_main_v78 (ix2 r j)) = ix1 j := funext fun a => by match a with | ⟨0, _⟩ => rfl
  rw [e78]
  simp only [e76l, e76r]
  unfold val_main_v75
  simp only [cat_left, cat_right]
  rfl

theorem decode_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S256x128, .f32⟩ : BufTy).Contents (Elt Ideal)) (x8 : (⟨S128, .f32⟩ : BufTy).Contents (Elt Ideal))
    (x9 : (⟨S128x1, .f32⟩ : BufTy).Contents (Elt Ideal)) (x10 : (⟨S1, .f32⟩ : BufTy).Contents (Elt Ideal))
    (x11 : (⟨S2x1600000, .i32⟩ : BufTy).Contents (Elt Ideal)) (x12 : (⟨S2x500000, .i32⟩ : BufTy).Contents (Elt Ideal))
    (WA WB : (⟨S128x128, .f32⟩ : BufTy).Contents (Elt Ideal)) (B1 : (⟨S1x128, .f32⟩ : BufTy).Contents (Elt Ideal))
    (B2 : (⟨S1x1, .f32⟩ : BufTy).Contents (Elt Ideal))
    (hWA : ∀ k q : Fin 128, WA (ix2 k q) = x7 (ix2 (⟨k.val, by omega⟩ : Fin 256) q))
    (hWB : ∀ k q : Fin 128, WB (ix2 k q) = x7 (ix2 (⟨128 + k.val, by omega⟩ : Fin 256) q))
    (hB1 : ∀ q : Fin 128, B1 (ix2 (0 : Fin 1) q) = x8 (ix1 q))
    (hB2 : ∀ q : Fin 1, B2 (ix2 (0 : Fin 1) q) = x10 (ix1 (0 : Fin 1))) :
    decode (val_main_v65 (F := Ideal) x0 x1 x2 x3 x4 x5 x6 x11 x12) (val_main_v74 (F := Ideal) x0 x1 x2 x3 x4 x5 x6 x11 x12) WA WB B1 x9 B2
      = val_main_v84 (F := Ideal) x0 x1 x2 x3 x4 x5 x6 x7 x8 x9 x10 x11 x12 := by
  funext i
  obtain ⟨r, q, rfl⟩ : ∃ (r : Fin 500000) (q : Fin 1), i = ix2 r q := ⟨i 0, i 1, eq_ix2 i⟩
  rw [val_main_v84_apply, val_main_v81_apply, val_main_v83_apply, val_main_v82_apply]
  have e81l : ∀ j, lidx_main_v81 (ix2 r q) j = ix2 r j := fun j => funext fun a => by match a with | ⟨0, _⟩ => rfl | ⟨1, _⟩ => rfl
  have e81r : ∀ j, ridx_main_v81 (ix2 r q) j = ix2 j q := fun j => funext fun a => by match a with | ⟨0, _⟩ => rfl | ⟨1, _⟩ => rfl
  have e82 : idx_main_v82 (idx_main_v83 (ix2 r q)) = ix1 (0 : Fin 1) := funext fun a => by match a with | ⟨0, _⟩ => rfl
  rw [e82]
  simp only [e81l, e81r, hidden_eq]
  show (∑ j : Fin 128, max (((∑ k : Fin 128, val_main_v65 (F := Ideal) x0 x1 x2 x3 x4 x5 x6 x11 x12 (ix2 r k) * WA (ix2 k j))
          + ∑ k : Fin 128, val_main_v74 (F := Ideal) x0 x1 x2 x3 x4 x5 x6 x11 x12 (ix2 r k) * WB (ix2 k j)) + B1 (ix2 (0 : Fin 1) j))
        (Ideal.ofBits .f32 0x00000000#32) * x9 (ix2 j q)) + B2 (ix2 (0 : Fin 1) q)
    = (∑ j : Fin 128, max (((∑ k : Fin 128, val_main_v65 (F := Ideal) x0 x1 x2 x3 x4 x5 x6 x11 x12 (ix2 r k) * x7 (ix2 (⟨k.val, by omega⟩ : Fin 256) j))
          + ∑ k : Fin 128, val_main_v74 (F := Ideal) x0 x1 x2 x3 x4 x5 x6 x11 x12 (ix2 r k) * x7 (ix2 (⟨128 + k.val, by omega⟩ : Fin 256) j)) + x8 (ix1 j))
        (Ideal.ofBits .f32 0x00000000#32) * x9 (ix2 j q)) + x10 (ix1 (0 : Fin 1))
  simp only [hWA, hWB, hB1, hB2]

end Cert.ReferenceIdeal.RefValue

end
-- ==== Proof.Chain.lean ====
/-
  What the run's last boundary holds at the result buffer.

  The fold is read back stretch by stretch.  Before the first region the host has aggregated the features over the
  edges (gather by source, scatter-add by destination, divide by the clipped in-degree); the region turns the
  aggregate and the features into the first hidden array; the host aggregates that array over the same edges; the
  second region gives the second hidden array; the host gathers its rows at the two endpoints of every pair and
  slices the decoder's first weight matrix in two; the third region gives the one-column score array, which the
  host flattens.  A stretch of host operations applied to any buffer contents computes, at each buffer it writes,
  the operations' composed term of the contents it reads, and leaves every other buffer alone: that is the
  definition of the fold unfolded.  The composed terms are the same operations of the same arrays as the
  reference's (its stages are named by the generated read-back of the reference), and each region's array is the
  reference's dense stage by the regrouping laws, so the boundary holds the reference's result term.
-/
import proofs.«122435_j83356725281166_1_alg».proof.Proof.Gen.KernelIdeal.Frame
import proofs.«122435_j83356725281166_1_alg».proof.Proof.Gen.ReferenceIdeal.Read
import proofs.«122435_j83356725281166_1_alg».proof.Proof.Layer1
import proofs.«122435_j83356725281166_1_alg».proof.Proof.Layer2
import proofs.«122435_j83356725281166_1_alg».proof.Proof.Decoder
import proofs.«122435_j83356725281166_1_alg».proof.Proof.RefDense
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo Idealize.ShloMosaic.ValueIdx

namespace Cert.KernelIdeal.Hand

open Cert.KernelIdeal Cert.KernelIdeal.Gen Cert.KernelIdeal.Dense
open Cert.ReferenceIdeal.Read
open Cert.ReferenceIdeal.RefValue (aggMean aggSum degSum degClip rowDiv)

/-! ## The host stretches on arbitrary buffer contents -/

section Stretches

variable (W : Valuation τ sig (Elt Ideal))

/-! ### Before the first region -/

theorem a0_v13 : StableHlo.after hostOps0 W (Proc.devRef .tc main_v13)
    = aggSum (W (Proc.devRef .tc main_arg0)) (val_main_v30 (F := Ideal) (W (Proc.devRef .tc main_arg11))) (val_main_v32 (F := Ideal) (W (Proc.devRef .tc main_arg11))) := rfl
theorem a0_v17 : StableHlo.after hostOps0 W (Proc.devRef .tc main_v17) = degSum (val_main_v32 (F := Ideal) (W (Proc.devRef .tc main_arg11))) := rfl
theorem a0_cst3 : StableHlo.after hostOps0 W (Proc.devRef .tc main_cst_3) = constant (F := Ideal) S_ .f32 0x3F800000#32 := rfl
theorem b0_v18 : StableHlo.after hostOps0_1 W (Proc.devRef .tc main_v18) = degClip (W (Proc.devRef .tc main_cst_3)) (W (Proc.devRef .tc main_v17)) := rfl
theorem b0_v13 : StableHlo.after hostOps0_1 W (Proc.devRef .tc main_v13) = (W (Proc.devRef .tc main_v13)) := rfl
theorem c0_v21 : StableHlo.after hostOps0_2 W (Proc.devRef .tc main_v21) = rowDiv (W (Proc.devRef .tc main_v13)) (W (Proc.devRef .tc main_v18)) := rfl

/-- The aggregate of the features, as the first region finds it. -/
theorem pre0_v21 : StableHlo.after hostOps0_2 (StableHlo.after hostOps0_1 (StableHlo.after hostOps0 W)) (Proc.devRef .tc main_v21) = val_main_v21 (F := Ideal) (W (Proc.devRef .tc main_arg0)) (W (Proc.devRef .tc main_arg11)) := by
  rw [c0_v21, b0_v13, b0_v18, a0_v13, a0_v17, a0_cst3]
  exact (Cert.ReferenceIdeal.RefValue.agg_first _ _).symm
/-- The first bias as a row, the edges' sources and destinations; the arguments stay. -/
theorem pre0_v22 : StableHlo.after hostOps0_2 (StableHlo.after hostOps0_1 (StableHlo.after hostOps0 W)) (Proc.devRef .tc main_v22) = shapeCast S1x128 (W (Proc.devRef .tc main_arg2)) shapeCasts_S128_S1x128 := rfl
theorem pre0_v1 : StableHlo.after hostOps0_2 (StableHlo.after hostOps0_1 (StableHlo.after hostOps0 W)) (Proc.devRef .tc main_v1) = val_main_v30 (F := Ideal) (W (Proc.devRef .tc main_arg11)) := rfl
theorem pre0_v3 : StableHlo.after hostOps0_2 (StableHlo.after hostOps0_1 (StableHlo.after hostOps0 W)) (Proc.devRef .tc main_v3) = val_main_v32 (F := Ideal) (W (Proc.devRef .tc main_arg11)) := rfl
theorem pre0_arg0 : StableHlo.after hostOps0_2 (StableHlo.after hostOps0_1 (StableHlo.after hostOps0 W)) (Proc.devRef .tc main_arg0) = (W (Proc.devRef .tc main_arg0)) := rfl
theorem pre0_arg1 : StableHlo.after hostOps0_2 (StableHlo.after hostOps0_1 (StableHlo.after hostOps0 W)) (Proc.devRef .tc main_arg1) = (W (Proc.devRef .tc main_arg1)) := rfl
theorem pre0_arg3 : StableHlo.after hostOps0_2 (StableHlo.after hostOps0_1 (StableHlo.after hostOps0 W)) (Proc.devRef .tc main_arg3) = (W (Proc.devRef .tc main_arg3)) := rfl
theorem pre0_arg4 : StableHlo.after hostOps0_2 (StableHlo.after hostOps0_1 (StableHlo.after hostOps0 W)) (Proc.devRef .tc main_arg4) = (W (Proc.devRef .tc main_arg4)) := rfl
theorem pre0_arg5 : StableHlo.after hostOps0_2 (StableHlo.after hostOps0_1 (StableHlo.after hostOps0 W)) (Proc.devRef .tc main_arg5) = (W (Proc.devRef .tc main_arg5)) := rfl
theorem pre0_arg6 : StableHlo.after hostOps0_2 (StableHlo.after hostOps0_1 (StableHlo.after hostOps0 W)) (Proc.devRef .tc main_arg6) = (W (Proc.devRef .tc main_arg6)) := rfl
theorem pre0_arg7 : StableHlo.after hostOps0_2 (StableHlo.after hostOps0_1 (StableHlo.after hostOps0 W)) (Proc.devRef .tc main_arg7) = (W (Proc.devRef .tc main_arg7)) := rfl
theorem pre0_arg8 : StableHlo.after hostOps0_2 (StableHlo.after hostOps0_1 (StableHlo.after hostOps0 W)) (Proc.devRef .tc main_arg8) = (W (Proc.devRef .tc main_arg8)) := rfl
theorem pre0_arg9 : StableHlo.after hostOps0_2 (StableHlo.after hostOps0_1 (StableHlo.after hostOps0 W)) (Proc.devRef .tc main_arg9) = (W (Proc.devRef .tc main_arg9)) := rfl
theorem pre0_arg10 : StableHlo.after hostOps0_2 (StableHlo.after hostOps0_1 (StableHlo.after hostOps0 W)) (Proc.devRef .tc main_arg10) = (W (Proc.devRef .tc main_arg10)) := rfl
theorem pre0_arg12 : StableHlo.after hostOps0_2 (StableHlo.after hostOps0_1 (StableHlo.after hostOps0 W)) (Proc.devRef .tc main_arg12) = (W (Proc.devRef .tc main_arg12)) := rfl

/-! ### Before the second region -/

theorem a1_v33 : StableHlo.after hostOps1 W (Proc.devRef .tc main_v33) = aggSum (W (Proc.devRef .tc main_v23)) (W (Proc.devRef .tc main_v1)) (W (Proc.devRef .tc main_v3)) := rfl
theorem a1_v37 : StableHlo.after hostOps1 W (Proc.devRef .tc main_v37) = degSum (W (Proc.devRef .tc main_v3)) := rfl
theorem a1_cst9 : StableHlo.after hostOps1 W (Proc.devRef .tc main_cst_9) = constant (F := Ideal) S_ .f32 0x3F800000#32 := rfl
theorem b1_v38 : StableHlo.after hostOps1_1 W (Proc.devRef .tc main_v38) = degClip (W (Proc.devRef .tc main_cst_9)) (W (Proc.devRef .tc main_v37)) := rfl
theorem b1_v33 : StableHlo.after hostOps1_1 W (Proc.devRef .tc main_v33) = (W (Proc.devRef .tc main_v33)) := rfl
theorem c1_v41 : StableHlo.after hostOps1_2 W (Proc.devRef .tc main_v41) = rowDiv (W (Proc.devRef .tc main_v33)) (W (Proc.devRef .tc main_v38)) := rfl

/-- The aggregate of the first hidden array over the same edges, as the second region finds it. -/
theorem pre1_v41 : StableHlo.after hostOps1_2 (StableHlo.after hostOps1_1 (StableHlo.after hostOps1 W)) (Proc.devRef .tc main_v41) = aggMean (W (Proc.devRef .tc main_v23)) (W (Proc.devRef .tc main_v1)) (W (Proc.devRef .tc main_v3)) := by
  rw [c1_v41, b1_v33, b1_v38, a1_v33, a1_v37, a1_cst9]
  rfl
/-- The second bias as a row; the first hidden array and the arguments stay. -/
theorem pre1_v23 : StableHlo.after hostOps1_2 (StableHlo.after hostOps1_1 (StableHlo.after hostOps1 W)) (Proc.devRef .tc main_v23) = (W (Proc.devRef .tc main_v23)) := rfl
theorem pre1_v42 : StableHlo.after hostOps1_2 (StableHlo.after hostOps1_1 (StableHlo.after hostOps1 W)) (Proc.devRef .tc main_v42) = shapeCast S1x128 (W (Proc.devRef .tc main_arg5)) shapeCasts_S128_S1x128 := rfl
theorem pre1_arg4 : StableHlo.after hostOps1_2 (StableHlo.after hostOps1_1 (StableHlo.after hostOps1 W)) (Proc.devRef .tc main_arg4) = (W (Proc.devRef .tc main_arg4)) := rfl
theorem pre1_arg6 : StableHlo.after hostOps1_2 (StableHlo.after hostOps1_1 (StableHlo.after hostOps1 W)) (Proc.devRef .tc main_arg6) = (W (Proc.devRef .tc main_arg6)) := rfl
theorem pre1_arg7 : StableHlo.after hostOps1_2 (StableHlo.after hostOps1_1 (StableHlo.after hostOps1 W)) (Proc.devRef .tc main_arg7) = (W (Proc.devRef .tc main_arg7)) := rfl
theorem pre1_arg8 : StableHlo.after hostOps1_2 (StableHlo.after hostOps1_1 (StableHlo.after hostOps1 W)) (Proc.devRef .tc main_arg8) = (W (Proc.devRef .tc main_arg8)) := rfl
theorem pre1_arg9 : StableHlo.after hostOps1_2 (StableHlo.after hostOps1_1 (StableHlo.after hostOps1 W)) (Proc.devRef .tc main_arg9) = (W (Proc.devRef .tc main_arg9)) := rfl
theorem pre1_arg10 : StableHlo.after hostOps1_2 (StableHlo.after hostOps1_1 (StableHlo.after hostOps1 W)) (Proc.devRef .tc main_arg10) = (W (Proc.devRef .tc main_arg10)) := rfl
theorem pre1_arg12 : StableHlo.after hostOps1_2 (StableHlo.after hostOps1_1 (StableHlo.after hostOps1 W)) (Proc.devRef .tc main_arg12) = (W (Proc.devRef .tc main_arg12)) := rfl

/-! ### Before the decoder -/

/-- The second hidden array's rows at the pairs' endpoints, the two halves of the first weight matrix, the two
    biases laid out as arrays; the output column stays. -/
theorem pre2_v54 : StableHlo.after hostOps2 W (Proc.devRef .tc main_v54)
    = Host.gather Cert.ReferenceIdeal.gather_S100000x128_S500000x1_S500000x128_1_0_n_n_0_1_1128 (W (Proc.devRef .tc main_v43)) (val_main_v64 (F := Ideal) (W (Proc.devRef .tc main_arg12))) := rfl
theorem pre2_v61 : StableHlo.after hostOps2 W (Proc.devRef .tc main_v61)
    = Host.gather Cert.ReferenceIdeal.gather_S100000x128_S500000x1_S500000x128_1_0_n_n_0_1_1128 (W (Proc.devRef .tc main_v43)) (val_main_v73 (F := Ideal) (W (Proc.devRef .tc main_arg12))) := rfl
theorem pre2_v62 : StableHlo.after hostOps2 W (Proc.devRef .tc main_v62) = extractStridedSlice S128x128 ![0, 0] (W (Proc.devRef .tc main_arg7)) slices_S256x128_S128x128_0_0 := rfl
theorem pre2_v63 : StableHlo.after hostOps2 W (Proc.devRef .tc main_v63) = extractStridedSlice S128x128 ![128, 0] (W (Proc.devRef .tc main_arg7)) slices_S256x128_S128x128_128_0 := rfl
theorem pre2_v64 : StableHlo.after hostOps2 W (Proc.devRef .tc main_v64) = shapeCast S1x128 (W (Proc.devRef .tc main_arg8)) shapeCasts_S128_S1x128 := rfl
theorem pre2_v65 : StableHlo.after hostOps2 W (Proc.devRef .tc main_v65) = shapeCast S1x1 (W (Proc.devRef .tc main_arg10)) shapeCasts_S1_S1x1 := rfl
theorem pre2_arg9 : StableHlo.after hostOps2 W (Proc.devRef .tc main_arg9) = (W (Proc.devRef .tc main_arg9)) := rfl

/-! ### After the decoder -/

/-- The score column flattened. -/
theorem post_v67 : StableHlo.after hostOps3 W (Proc.devRef .tc main_v67) = shapeCast S500000 (W (Proc.devRef .tc main_v66)) shapeCasts_S500000x1_S500000 := rfl

end Stretches

variable (m : (ℓ : Loc nD τ sig) → Buf (Elt Ideal) ℓ) (ρ : Dev nD → PrngReg)

/-- A bias vector laid out as a row reads, at column q, the vector at q. -/
theorem row_of_vec (x : S128.Idx → EReal) (q : Fin 128) : shapeCast S1x128 x shapeCasts_S128_S1x128 (ix2 (0 : Fin 1) q) = x (ix1 q) :=
  shapeCast_apply x shapeCasts_S128_S1x128 _ _ (by rw [Shape.rowMajor_val_one, Shape.rowMajor_val_two]; show q.val = 0 * 128 + q.val; omega)

/-! ## Up to the first region -/

theorem W3_v21 (c : Dev nD) : W3 m ρ c (Proc.devRef .tc main_v21) = val_main_v21 (F := Ideal) (m ((c : Thread nD τ).loc main_arg0)) (m ((c : Thread nD τ).loc main_arg11)) :=
  pre0_v21 (W0 m ρ c)
theorem W3_v22 (c : Dev nD) : W3 m ρ c (Proc.devRef .tc main_v22) = shapeCast S1x128 (m ((c : Thread nD τ).loc main_arg2)) shapeCasts_S128_S1x128 :=
  pre0_v22 (W0 m ρ c)
theorem W3_v1 (c : Dev nD) : W3 m ρ c (Proc.devRef .tc main_v1) = val_main_v30 (F := Ideal) (m ((c : Thread nD τ).loc main_arg11)) := pre0_v1 (W0 m ρ c)
theorem W3_v3 (c : Dev nD) : W3 m ρ c (Proc.devRef .tc main_v3) = val_main_v32 (F := Ideal) (m ((c : Thread nD τ).loc main_arg11)) := pre0_v3 (W0 m ρ c)
theorem W3_arg0 (c : Dev nD) : W3 m ρ c (Proc.devRef .tc main_arg0) = (m ((c : Thread nD τ).loc main_arg0)) := pre0_arg0 (W0 m ρ c)
theorem W3_arg1 (c : Dev nD) : W3 m ρ c (Proc.devRef .tc main_arg1) = (m ((c : Thread nD τ).loc main_arg1)) := pre0_arg1 (W0 m ρ c)
theorem W3_arg3 (c : Dev nD) : W3 m ρ c (Proc.devRef .tc main_arg3) = (m ((c : Thread nD τ).loc main_arg3)) := pre0_arg3 (W0 m ρ c)
theorem W3_arg4 (c : Dev nD) : W3 m ρ c (Proc.devRef .tc main_arg4) = (m ((c : Thread nD τ).loc main_arg4)) := pre0_arg4 (W0 m ρ c)
theorem W3_arg5 (c : Dev nD) : W3 m ρ c (Proc.devRef .tc main_arg5) = (m ((c : Thread nD τ).loc main_arg5)) := pre0_arg5 (W0 m ρ c)
theorem W3_arg6 (c : Dev nD) : W3 m ρ c (Proc.devRef .tc main_arg6) = (m ((c : Thread nD τ).loc main_arg6)) := pre0_arg6 (W0 m ρ c)
theorem W3_arg7 (c : Dev nD) : W3 m ρ c (Proc.devRef .tc main_arg7) = (m ((c : Thread nD τ).loc main_arg7)) := pre0_arg7 (W0 m ρ c)
theorem W3_arg8 (c : Dev nD) : W3 m ρ c (Proc.devRef .tc main_arg8) = (m ((c : Thread nD τ).loc main_arg8)) := pre0_arg8 (W0 m ρ c)
theorem W3_arg9 (c : Dev nD) : W3 m ρ c (Proc.devRef .tc main_arg9) = (m ((c : Thread nD τ).loc main_arg9)) := pre0_arg9 (W0 m ρ c)
theorem W3_arg10 (c : Dev nD) : W3 m ρ c (Proc.devRef .tc main_arg10) = (m ((c : Thread nD τ).loc main_arg10)) := pre0_arg10 (W0 m ρ c)
theorem W3_arg12 (c : Dev nD) : W3 m ρ c (Proc.devRef .tc main_arg12) = (m ((c : Thread nD τ).loc main_arg12)) := pre0_arg12 (W0 m ρ c)

/-! ## The first region -/

/-- The first hidden array is the reference's. -/
theorem W4_v23 (c : Dev nD) : W4 m ρ c (Proc.devRef .tc main_v23) = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg11)) := by
  refine (W4_arr m ρ c 5).trans ((final0 (V3 m ρ) c).trans ?_)
  show layerRelu (W3 m ρ c (Proc.devRef .tc main_v21)) (W3 m ρ c (Proc.devRef .tc main_arg0)) (W3 m ρ c (Proc.devRef .tc main_arg1))
    (W3 m ρ c (Proc.devRef .tc main_arg3)) (W3 m ρ c (Proc.devRef .tc main_v22)) = _
  rw [W3_v21, W3_arg0, W3_arg1, W3_arg3, W3_v22]
  exact Cert.ReferenceIdeal.RefValue.layer1_eq _ _ _ _ _ _ (row_of_vec _)

theorem W4_v1 (c : Dev nD) : W4 m ρ c (Proc.devRef .tc main_v1) = val_main_v30 (F := Ideal) (m ((c : Thread nD τ).loc main_arg11)) :=
  (W4_of_ne m ρ c main_v1 (by decide)).trans (W3_v1 m ρ c)
theorem W4_v3 (c : Dev nD) : W4 m ρ c (Proc.devRef .tc main_v3) = val_main_v32 (F := Ideal) (m ((c : Thread nD τ).loc main_arg11)) :=
  (W4_of_ne m ρ c main_v3 (by decide)).trans (W3_v3 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg6 (c : Dev nD) : W4 m ρ c (Proc.devRef .tc main_arg6) = (m ((c : Thread nD τ).loc main_arg6)) :=
  (W4_of_ne m ρ c main_arg6 (by decide)).trans (W3_arg6 m ρ c)
theorem W4_arg7 (c : Dev nD) : W4 m ρ c (Proc.devRef .tc main_arg7) = (m ((c : Thread nD τ).loc main_arg7)) :=
  (W4_of_ne m ρ c main_arg7 (by decide)).trans (W3_arg7 m ρ c)
theorem W4_arg8 (c : Dev nD) : W4 m ρ c (Proc.devRef .tc main_arg8) = (m ((c : Thread nD τ).loc main_arg8)) :=
  (W4_of_ne m ρ c main_arg8 (by decide)).trans (W3_arg8 m ρ c)
theorem W4_arg9 (c : Dev nD) : W4 m ρ c (Proc.devRef .tc main_arg9) = (m ((c : Thread nD τ).loc main_arg9)) :=
  (W4_of_ne m ρ c main_arg9 (by decide)).trans (W3_arg9 m ρ c)
theorem W4_arg10 (c : Dev nD) : W4 m ρ c (Proc.devRef .tc main_arg10) = (m ((c : Thread nD τ).loc main_arg10)) :=
  (W4_of_ne m ρ c main_arg10 (by decide)).trans (W3_arg10 m ρ c)
theorem W4_arg12 (c : Dev nD) : W4 m ρ c (Proc.devRef .tc main_arg12) = (m ((c : Thread nD τ).loc main_arg12)) :=
  (W4_of_ne m ρ c main_arg12 (by decide)).trans (W3_arg12 m ρ c)
theorem W4_arg5 (c : Dev nD) : W4 m ρ c (Proc.devRef .tc main_arg5) = (m ((c : Thread nD τ).loc main_arg5)) :=
  (W4_of_ne m ρ c main_arg5 (by decide)).trans (W3_arg5 m ρ c)

/-! ## Up to the second region -/

/-- The aggregate of the first hidden array over the edges, as the second region finds it. -/
theorem W7_v41 (c : Dev nD) : W7 m ρ c (Proc.devRef .tc main_v41) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg11)) := by
  refine (pre1_v41 (W4 m ρ c)).trans ?_
  rw [W4_v23, W4_v1, W4_v3]
  exact (Cert.ReferenceIdeal.RefValue.agg_second _ _ _ _ _).symm
theorem W7_v23 (c : Dev nD) : W7 m ρ c (Proc.devRef .tc main_v23) = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg11)) :=
  (pre1_v23 (W4 m ρ c)).trans (W4_v23 m ρ c)
theorem W7_v42 (c : Dev nD) : W7 m ρ c (Proc.devRef .tc main_v42) = shapeCast S1x128 (m ((c : Thread nD τ).loc main_arg5)) shapeCasts_S128_S1x128 := by
  refine (pre1_v42 (W4 m ρ c)).trans ?_
  rw [W4_arg5]
theorem W7_arg4 (c : Dev nD) : W7 m ρ c (Proc.devRef .tc main_arg4) = (m ((c : Thread nD τ).loc main_arg4)) :=
  (pre1_arg4 (W4 m ρ c)).trans (W4_arg4 m ρ c)
theorem W7_arg6 (c : Dev nD) : W7 m ρ c (Proc.devRef .tc main_arg6) = (m ((c : Thread nD τ).loc main_arg6)) :=
  (pre1_arg6 (W4 m ρ c)).trans (W4_arg6 m ρ c)
theorem W7_arg7 (c : Dev nD) : W7 m ρ c (Proc.devRef .tc main_arg7) = (m ((c : Thread nD τ).loc main_arg7)) :=
  (pre1_arg7 (W4 m ρ c)).trans (W4_arg7 m ρ c)
theorem W7_arg8 (c : Dev nD) : W7 m ρ c (Proc.devRef .tc main_arg8) = (m ((c : Thread nD τ).loc main_arg8)) :=
  (pre1_arg8 (W4 m ρ c)).trans (W4_arg8 m ρ c)
theorem W7_arg9 (c : Dev nD) : W7 m ρ c (Proc.devRef .tc main_arg9) = (m ((c : Thread nD τ).loc main_arg9)) :=
  (pre1_arg9 (W4 m ρ c)).trans (W4_arg9 m ρ c)
theorem W7_arg10 (c : Dev nD) : W7 m ρ c (Proc.devRef .tc main_arg10) = (m ((c : Thread nD τ).loc main_arg10)) :=
  (pre1_arg10 (W4 m ρ c)).trans (W4_arg10 m ρ c)
theorem W7_arg12 (c : Dev nD) : W7 m ρ c (Proc.devRef .tc main_arg12) = (m ((c : Thread nD τ).loc main_arg12)) :=
  (pre1_arg12 (W4 m ρ c)).trans (W4_arg12 m ρ c)

/-! ## The second region -/

/-- The second hidden array is the reference's. -/
theorem W8_v43 (c : Dev nD) : W8 m ρ c (Proc.devRef .tc main_v43) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) := by
  refine (W8_arr m ρ c 5).trans ((final1 (V7 m ρ) c).trans ?_)
  show layer (W7 m ρ c (Proc.devRef .tc main_v41)) (W7 m ρ c (Proc.devRef .tc main_v23)) (W7 m ρ c (Proc.devRef .tc main_arg4))
    (W7 m ρ c (Proc.devRef .tc main_arg6)) (W7 m ρ c (Proc.devRef .tc main_v42)) = _
  rw [W7_v41, W7_v23, W7_arg4, W7_arg6, W7_v42]
  exact Cert.ReferenceIdeal.RefValue.layer2_eq _ _ _ _ _ _ _ _ _ (row_of_vec _)

theorem W8_arg7 (c : Dev nD) : W8 m ρ c (Proc.devRef .tc main_arg7) = (m ((c : Thread nD τ).loc main_arg7)) :=
  (W8_of_ne m ρ c main_arg7 (by decide)).trans (W7_arg7 m ρ c)
theorem W8_arg8 (c : Dev nD) : W8 m ρ c (Proc.devRef .tc main_arg8) = (m ((c : Thread nD τ).loc main_arg8)) :=
  (W8_of_ne m ρ c main_arg8 (by decide)).trans (W7_arg8 m ρ c)
theorem W8_arg9 (c : Dev nD) : W8 m ρ c (Proc.devRef .tc main_arg9) = (m ((c : Thread nD τ).loc main_arg9)) :=
  (W8_of_ne m ρ c main_arg9 (by decide)).trans (W7_arg9 m ρ c)
theorem W8_arg10 (c : Dev nD) : W8 m ρ c (Proc.devRef .tc main_arg10) = (m ((c : Thread nD τ).loc main_arg10)) :=
  (W8_of_ne m ρ c main_arg10 (by decide)).trans (W7_arg10 m ρ c)
theorem W8_arg12 (c : Dev nD) : W8 m ρ c (Proc.devRef .tc main_arg12) = (m ((c : Thread nD τ).loc main_arg12)) :=
  (W8_of_ne m ρ c main_arg12 (by decide)).trans (W7_arg12 m ρ c)

/-! ## Up to the decoder -/

/-- The second hidden array's rows at the first endpoints of the pairs. -/
theorem W9_v54 (c : Dev nD) : W9 m ρ c (Proc.devRef .tc main_v54) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) := by
  refine (pre2_v54 (W8 m ρ c)).trans ?_
  rw [W8_v43, W8_arg12]
  rfl
/-- At the second endpoints. -/
theorem W9_v61 (c : Dev nD) : W9 m ρ c (Proc.devRef .tc main_v61) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) := by
  refine (pre2_v61 (W8 m ρ c)).trans ?_
  rw [W8_v43, W8_arg12]
  rfl
theorem W9_v62 (c : Dev nD) : W9 m ρ c (Proc.devRef .tc main_v62)
    = extractStridedSlice S128x128 ![0, 0] (m ((c : Thread nD τ).loc main_arg7)) slices_S256x128_S128x128_0_0 := by
  refine (pre2_v62 (W8 m ρ c)).trans ?_
  rw [W8_arg7]
theorem W9_v63 (c : Dev nD) : W9 m ρ c (Proc.devRef .tc main_v63)
    = extractStridedSlice S128x128 ![128, 0] (m ((c : Thread nD τ).loc main_arg7)) slices_S256x128_S128x128_128_0 := by
  refine (pre2_v63 (W8 m ρ c)).trans ?_
  rw [W8_arg7]
theorem W9_v64 (c : Dev nD) : W9 m ρ c (Proc.devRef .tc main_v64) = shapeCast S1x128 (m ((c : Thread nD τ).loc main_arg8)) shapeCasts_S128_S1x128 := by
  refine (pre2_v64 (W8 m ρ c)).trans ?_
  rw [W8_arg8]
theorem W9_v65 (c : Dev nD) : W9 m ρ c (Proc.devRef .tc main_v65) = shapeCast S1x1 (m ((c : Thread nD τ).loc main_arg10)) shapeCasts_S1_S1x1 := by
  refine (pre2_v65 (W8 m ρ c)).trans ?_
  rw [W8_arg10]
theorem W9_arg9 (c : Dev nD) : W9 m ρ c (Proc.devRef .tc main_arg9) = (m ((c : Thread nD τ).loc main_arg9)) :=
  (pre2_arg9 (W8 m ρ c)).trans (W8_arg9 m ρ c)

/-! ## The decoder and the flattening -/

/-- The score array is the reference's. -/
theorem W10_v66 (c : Dev nD) : W10 m ρ c (Proc.devRef .tc main_v66) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W10_arr m ρ c 7).trans ((final2 (V9 m ρ) c).trans ?_)
  show decode (W9 m ρ c (Proc.devRef .tc main_v54)) (W9 m ρ c (Proc.devRef .tc main_v61)) (W9 m ρ c (Proc.devRef .tc main_v62))
    (W9 m ρ c (Proc.devRef .tc main_v63)) (W9 m ρ c (Proc.devRef .tc main_v64)) (W9 m ρ c (Proc.devRef .tc main_arg9))
    (W9 m ρ c (Proc.devRef .tc main_v65)) = _
  rw [W9_v54, W9_v61, W9_v62, W9_v63, W9_v64, W9_arg9, W9_v65]
  refine Cert.ReferenceIdeal.RefValue.decode_eq _ _ _ _ _ _ _ _ _ _ _ _ _ _ _ _ _ ?_ ?_ (row_of_vec _) ?_
  · intro k q
    exact extractStridedSlice_apply _ _ _ _ _ (fun a => by match a with | ⟨0, _⟩ => (show k.val = 0 + k.val; omega) | ⟨1, _⟩ => (show q.val = 0 + q.val; omega))
  · intro k q
    exact extractStridedSlice_apply _ _ _ _ _ (fun a => by match a with | ⟨0, _⟩ => (show 128 + k.val = 128 + k.val; rfl) | ⟨1, _⟩ => (show q.val = 0 + q.val; omega))
  · intro q
    exact shapeCast_apply _ shapeCasts_S1_S1x1 _ _ (by rw [Shape.rowMajor_val_one, Shape.rowMajor_val_two]; have := q.isLt; show 0 = 0 * 1 + q.val; omega)

/-- The result buffer ends at the reference's result term of the argument arrays. -/
theorem W11_v67 (c : Dev nD) : W11 m ρ c (Proc.devRef .tc main_v67) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (post_v67 (W10 m ρ c)).trans ?_
  rw [W10_v66]
  rfl

end Cert.KernelIdeal.Hand

end
-- ==== Proof.lean ====
/-
  Equivalence, over the extended reals, of a two-layer GraphSAGE encoder with a pair decoder written as three
  pipelined kernels (the dense part of each layer, the decoder's perceptron) against its plain reference.

  Both programs aggregate neighbour features on the host with the same operations (gather by source, scatter-add
  by destination, division by the clipped in-degree) and gather the decoder's endpoint rows the same way; they
  differ only in the dense stages.  A layer is (A·W_l + X·W_r) + b in the kernel and (A·W_l + b) + X·W_r in the
  reference; the decoder's first product is h0·W[:128] + h1·W[128:] in the kernel and [h0 | h1]·W in the
  reference.  At the exact instance matrix products are plain sums, format changes are the identity, so the two
  sides differ by regrouping sums of extended reals, which holds at every input: the precondition is never
  opened.  The kernel's result is read off its run region by region (each region's array is one whole-array
  function of what it reads, because its row blocks tile the array), the reference's off its generated run.
-/
import proofs.«122435_j83356725281166_1_alg».proof.Defs
import proofs.«122435_j83356725281166_1_alg».proof.Proof.Gen.Kernel
import proofs.«122435_j83356725281166_1_alg».proof.Proof.Gen.Kernel.Skeleton
import proofs.«122435_j83356725281166_1_alg».proof.Proof.Gen.Kernel.Launch
import proofs.«122435_j83356725281166_1_alg».proof.Proof.Gen.Kernel.Points
import proofs.«122435_j83356725281166_1_alg».proof.Proof.Gen.Kernel.Frame
import proofs.«122435_j83356725281166_1_alg».proof.Proof.Gen.KernelIdeal
import proofs.«122435_j83356725281166_1_alg».proof.Proof.Gen.KernelIdeal.Skeleton
import proofs.«122435_j83356725281166_1_alg».proof.Proof.Gen.KernelIdeal.Launch
import proofs.«122435_j83356725281166_1_alg».proof.Proof.Gen.KernelIdeal.Points
import proofs.«122435_j83356725281166_1_alg».proof.Proof.Gen.KernelIdeal.Frame
import proofs.«122435_j83356725281166_1_alg».proof.Proof.Gen.ReferenceIdeal
import proofs.«122435_j83356725281166_1_alg».proof.Proof.Gen.Pre_finite_inputs
import proofs.«122435_j83356725281166_1_alg».proof.Proof.Gen.ReferenceIdeal.Run
import proofs.«122435_j83356725281166_1_alg».proof.Proof.Gen.ReferenceIdeal.Read
import proofs.«122435_j83356725281166_1_alg».proof.Proof.KernelRun
import proofs.«122435_j83356725281166_1_alg».proof.Proof.Chain
import Idealize.ShloMosaic.Adequacy
import Idealize.ShloMosaic.Init

noncomputable section

namespace Cert.Proof

open Idealize.ShloMosaic Idealize.SL.Sem

/-- The three programs run, nothing faults, and the arguments end unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result at the reference's result term of the (agreeing) arguments. -/
theorem algebraic : Cert.algebraic_KernelIdeal_ReferenceIdeal := by
  intro m ρ m' ρ' _ hagree
  refine ⟨fun c => Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Hand.W11_v67 m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v85_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
